-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096x64 : Shape := ⟨2, ![4096, 64]⟩
abbrev S16x4096 : Shape := ⟨2, ![16, 4096]⟩
abbrev S4096x16 : Shape := ⟨2, ![4096, 16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  main_v18

def fn {F : FTy → Type} [FloatOps F] (main_arg0 : FVec F S4x2048x4096 .f32) (main_arg1 : IVec S4096x4096 32) (main_arg2 : FVec F S4096x64 .f32) (main_arg3 : FVec F S16x4096 .f32) (main_arg4 : FVec F S4096x16 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x64 .f32 := Host.absf main_arg2
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S16x4096 .f32 := Host.absf main_arg3
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S4096x16 .f32 := Host.absf main_arg4
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_v13 main_v16
-- ==== Kernel.lean ====
abbrev S4x2048x4096 : Shape := ⟨3, ![4, 2048, 4096]⟩
abbrev S4096x4096 : Shape := ⟨2, ![4096, 4096]⟩
abbrev S4096x64 : Shape := ⟨2, ![4096, 64]⟩
abbrev S16x4096 : Shape := ⟨2, ![16, 4096]⟩
abbrev S4096x16 : Shape := ⟨2, ![4096, 16]⟩
abbrev S8192x4096 : Shape := ⟨2, ![8192, 4096]⟩
abbrev S64x4096 : Shape := ⟨2, ![64, 4096]⟩
abbrev S1024x512 : Shape := ⟨2, ![1024, 512]⟩
abbrev S8x1024 : Shape := ⟨2, ![8, 1024]⟩
abbrev S16x512 : Shape := ⟨2, ![16, 512]⟩
abbrev S1024x16 : Shape := ⟨2, ![1024, 16]⟩
abbrev S1024x1024 : Shape := ⟨2, ![1024, 1024]⟩
abbrev S1024x8 : Shape := ⟨2, ![1024, 8]⟩
abbrev S1024x8x64 : Shape := ⟨3, ![1024, 8, 64]⟩
abbrev S1024x8x1 : Shape := ⟨3, ![1024, 8, 1]⟩
abbrev S512x1024 : Shape := ⟨2, ![512, 1024]⟩
abbrev S512x16 : Shape := ⟨2, ![512, 16]⟩
abbrev S16x1024 : Shape := ⟨2, ![16, 1024]⟩

abbrev nBuf : Space → Nat
  | .hbm => 9
  | .vmem => 14
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x64, .f32⟩
  | .hbm, ⟨3, _⟩ => ⟨S16x4096, .f32⟩
  | .hbm, ⟨4, _⟩ => ⟨S4096x16, .f32⟩
  | .hbm, ⟨5, _⟩ => ⟨S8192x4096, .f32⟩
  | .hbm, ⟨6, _⟩ => ⟨S64x4096, .f32⟩
  | .hbm, ⟨7, _⟩ => ⟨S8192x4096, .f32⟩
  | .hbm, ⟨8, _⟩ => ⟨S4x2048x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .i32⟩
  | .local _ .vmem, ⟨3, _⟩ => ⟨S1024x512, .i32⟩
  | .local _ .vmem, ⟨4, _⟩ => ⟨S8x1024, .f32⟩
  | .local _ .vmem, ⟨5, _⟩ => ⟨S8x1024, .f32⟩
  | .local _ .vmem, ⟨6, _⟩ => ⟨S16x512, .f32⟩
  | .local _ .vmem, ⟨7, _⟩ => ⟨S16x512, .f32⟩
  | .local _ .vmem, ⟨8, _⟩ => ⟨S1024x16, .f32⟩
  | .local _ .vmem, ⟨9, _⟩ => ⟨S1024x16, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x16, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v33 : BitVec 1 := Scalar.cmpi .eq arg2 c7_i32
  let v34 : BitVec 32 := Scalar.extui v33
  let c0_i32_17 : BitVec 32 := 0#32
  let v35 : BitVec 1 := Scalar.cmpi .ne v34 c0_i32_17
  v35

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1024x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4x2048x4096_S8192x4096 : S4x2048x4096.ShapeCasts S8192x4096
  transposes_S4096x64_S64x4096_1_0 : S4096x64.Transposes [1, 0] S64x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  transposes_S8x1024_p1_0_S1024x8 : S8x1024.Transposes [1, 0] S1024x8
  shapeCasts_S1024x512_S1024x8x64 : S1024x512.ShapeCasts S1024x8x64
  shapeCasts_S1024x8_S1024x8x1 : S1024x8.ShapeCasts S1024x8x1
  broadcasts_S1024x8x1_S1024x8x64 : S1024x8x1.Broadcasts S1024x8x64
  shapeCasts_S1024x8x64_S1024x512 : S1024x8x64.ShapeCasts S1024x512
  transposes_S1024x512_p1_0_S512x1024 : S1024x512.Transposes [1, 0] S512x1024
  inb_S16x512_S16x512_0_0 : ∀ a, (![0, 0] : Fin 2 → Nat) a + S16x512.size a ≤ S16x512.size a
  h_S16x512 : 0 < S16x512.numel
  transposes_S16x512_p1_0_S512x16 : S16x512.Transposes [1, 0] S512x16
  transposes_S1024x16_p1_0_S16x1024 : S1024x16.Transposes [1, 0] S16x1024
  shapeCasts_S8192x4096_S4x2048x4096 : S8192x4096.ShapeCasts S4x2048x4096
  dot_S1024x512_S512x1024_S1024x1024_1_0_0_1_n_n_wf : DotDims.WF S1024x512 S512x1024 S1024x1024 [1] [0] [0] [1] [] []
  dot_S1024x512_S512x16_S1024x16_1_0_0_1_n_n_wf : DotDims.WF S1024x512 S512x16 S1024x16 [1] [0] [0] [1] [] []
  dot_S1024x16_S16x1024_S1024x1024_1_0_0_1_n_n_wf : DotDims.WF S1024x16 S16x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .i32 = 32 ∨ (Rect.block (s := S4096x4096) S1024x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1024.size a ≤ S64x4096.size a
  hwx0_2 : ∀ i : grid0.Coords, EltTy.bits .f32 = 32 ∨ (Rect.block (s := S64x4096) S8x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x512.size a ≤ S16x4096.size a
  hwx0_3 : ∀ i : grid0.Coords, EltTy.bits .f32 = 32 ∨ (Rect.block (s := S16x4096) S16x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x16.size a ≤ S4096x16.size a
  hwx0_4 : ∀ i : grid0.Coords, EltTy.bits .f32 = 32 ∨ (Rect.block (s := S4096x16) S1024x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x4096.size a
  hwx0_5 : ∀ i : grid0.Coords, EltTy.bits .f32 = 32 ∨ (Rect.block (s := S8192x4096) S1024x1024.size (cc0_transform_5 i) (hinb0_5 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x512_S512x16_S1024x16_1_0_0_1_n_n : DotDims S1024x512 S512x16 S1024x16 where
  lhsContracting := [1]
  rhsContracting := [0]
  lhsNonContracting := [0]
  rhsNonContracting := [1]
  lhsBatch := []
  rhsBatch := []
  wf := dot_S1024x512_S512x16_S1024x16_1_0_0_1_n_n_wf
def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x16.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096x64 : Shape := ⟨2, ![4096, 64]⟩
abbrev S16x4096 : Shape := ⟨2, ![16, 4096]⟩
abbrev S4096x16 : Shape := ⟨2, ![4096, 16]⟩
abbrev S4096x64x64 : Shape := ⟨3, ![4096, 64, 64]⟩
abbrev S4096x64x1 : Shape := ⟨3, ![4096, 64, 1]⟩
abbrev S4x2048x16 : Shape := ⟨3, ![4, 2048, 16]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x64, .f32⟩
  | .hbm, ⟨3, _⟩ => ⟨S16x4096, .f32⟩
  | .hbm, ⟨4, _⟩ => ⟨S4096x16, .f32⟩
  | .hbm, ⟨5, _⟩ => ⟨S4096x4096, .f32⟩
  | .hbm, ⟨6, _⟩ => ⟨S4096x64x64, .f32⟩
  | .hbm, ⟨7, _⟩ => ⟨S4096x64x1, .f32⟩
  | .hbm, ⟨8, _⟩ => ⟨S4096x64x64, .f32⟩
  | .hbm, ⟨9, _⟩ => ⟨S4096x64x64, .f32⟩
  | .hbm, ⟨10, _⟩ => ⟨S4096x4096, .f32⟩
  | .hbm, ⟨11, _⟩ => ⟨S4x2048x4096, .f32⟩
  | .hbm, ⟨12, _⟩ => ⟨S4x2048x16, .f32⟩
  | .hbm, ⟨13, _⟩ => ⟨S4x2048x4096, .f32⟩
  | .hbm, ⟨14, _⟩ => ⟨S_, .f32⟩
  | .hbm, ⟨15, _⟩ => ⟨S4x2048x4096, .f32⟩
  | .hbm, ⟨16, _⟩ => ⟨S4x2048x4096, .f32⟩
  | .hbm, ⟨17, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  shapeCasts_S4096x4096_S4096x64x64 : S4096x4096.ShapeCasts S4096x64x64
  bcast_S4096x64_S4096x64x1_0_1 : S4096x64.BroadcastsInDim S4096x64x1 (![0, 1] : Fin 2 → Fin S4096x64x1.rank)
  bcast_S4096x64x1_S4096x64x64_0_1_2 : S4096x64x1.BroadcastsInDim S4096x64x64 (![0, 1, 2] : Fin 3 → Fin S4096x64x64.rank)
  shapeCasts_S4096x64x64_S4096x4096 : S4096x64x64.ShapeCasts S4096x4096
  bcast_S_S4x2048x4096 : S_.BroadcastsInDim S4x2048x4096 (![] : Fin 0 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S16x4096_S4x2048x16_2_1_01_0_n_n_wf : DotDims.WF S4x2048x4096 S16x4096 S4x2048x16 [2] [1] [0, 1] [0] [] []
  dot_S4x2048x16_S4096x16_S4x2048x4096_2_1_01_0_n_n_wf : DotDims.WF S4x2048x16 S4096x16 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S4096x16_S4x2048x4096_2_1_01_0_n_n : DotDims S4x2048x16 S4096x16 S4x2048x4096 where
  lhsContracting := [2]
  rhsContracting := [1]
  lhsNonContracting := [0, 1]
  rhsNonContracting := [0]
  lhsBatch := []
  rhsBatch := []
  wf := dot_S4x2048x16_S4096x16_S4x2048x4096_2_1_01_0_n_n_wf

class Facts : Prop extends Facts₀ where

variable [Facts]
-- ==== Proof.Pieces.lean ====
/-
  What each of the body's three control cases leaves behind, as values.
  The body is run once per case: at the first column block (case A) both accumulators are zeroed and then
  updated; at a middle block (case B) they are updated from what the block before left; at the last block
  (case C) they are updated and the output block is written from the updated accumulators. Every store covers
  its whole buffer, so what a buffer holds after the body is the value of its last store, and a load that follows
  a store into the same buffer reads that store's value. Stated for any float instance.
-/
import proofs.«129875_j63350767616598_1_alg».proof.Proof.Gen.KernelIdeal.Frame
import Idealize.ShloMosaic.Lib.Pipeline.Value
import Idealize.ShloMosaic.Lib.Tactic

noncomputable section

namespace Cert.KernelIdeal.Body

open Cert.KernelIdeal Cert.KernelIdeal.Gen Idealize.ShloMosaic Idealize.ShloMosaic.TcCoe Idealize.SL.Sem

variable {F : FTy → Type} [FloatOps F]
variable (c : Dev nD) (i : grid0.Coords)
  (arg3 : Memref sig .tc .vmem S1024x512 .f32) (harg3 : arg3.IsWhole)
  (arg4 : Memref sig .tc .vmem S1024x512 .i32) (harg4 : arg4.IsWhole)
  (arg5 : Memref sig .tc .vmem S8x1024 .f32) (harg5 : arg5.IsWhole)
  (arg6 : Memref sig .tc .vmem S16x512 .f32) (harg6 : arg6.IsWhole)
  (arg7 : Memref sig .tc .vmem S1024x16 .f32) (harg7 : arg7.IsWhole)
  (arg8 : Memref sig .tc .vmem S1024x1024 .f32) (harg8 : arg8.IsWhole)
  (arg9 : Memref sig .tc .vmem S1024x1024 .f32) (harg9 : arg9.IsWhole)
  (arg10 : Memref sig .tc .vmem S1024x16 .f32) (harg10 : arg10.IsWhole)
  (x0 : Vec F S1024x512 .f32) (x1 : Vec F S1024x512 .i32) (x2 : Vec F S8x1024 .f32) (x3 : Vec F S16x512 .f32)
  (x4 : Vec F S1024x16 .f32)

/-- The zero offsets of a rank-2 whole-buffer access, as a constant function. -/
theorem hz : (![0, 0] : Fin 2 → Nat) = fun _ => 0 := funext fun a => by fin_cases a <;> rfl

/-! ## A middle column block: both accumulators step from what the block before left -/

theorem acc_B (hc0 : ¬cond0_0 i) (hc1 : ¬cond0_1 i) (xs0 : Vec F S1024x1024 .f32) (xs1 : Vec F S1024x16 .f32) :
    sout0_B_0 c i arg3 harg3 arg4 harg4 arg5 harg5 arg6 harg6 arg7 harg7 arg8 harg8 arg9 harg9 arg10 harg10 hc0 hc1 x0 x1 x2 x3 x4 xs0 xs1 = k0_pay5 x0 x1 x2 xs0 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero hz]
  simp only [View.readAt_eq_ld, harg3.read_unread, harg4.read_unread, harg5.read_unread, harg6.read_unread, harg7.read_unread, harg9.read_unread, harg10.read_unread, View.ld_unit_zero (S := S1024x512) hz, View.ld_unit_zero (S := S8x1024) hz, View.ld_unit_zero (S := S16x512) hz, View.ld_unit_zero (S := S1024x16) hz, View.ld_unit_zero (S := S1024x1024) hz]

theorem xa_B (hc0 : ¬cond0_0 i) (hc1 : ¬cond0_1 i) (xs0 : Vec F S1024x1024 .f32) (xs1 : Vec F S1024x16 .f32) :
    sout0_B_1 c i arg3 harg3 arg4 harg4 arg5 harg5 arg6 harg6 arg7 harg7 arg8 harg8 arg9 harg9 arg10 harg10 hc0 hc1 x0 x1 x2 x3 x4 xs0 xs1 = k0_pay6 x0 x3 xs1 := by
  unfold sout0_B_1
  rw [View.read_writes_eq_canon _ _ _ (scover0_B_1 c i arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero hz]
  simp only [View.readAt_eq_ld, harg3.read_unread, harg4.read_unread, harg5.read_unread, harg6.read_unread, harg7.read_unread, harg9.read_unread, harg10.read_unread, View.ld_unit_zero (S := S1024x512) hz, View.ld_unit_zero (S := S8x1024) hz, View.ld_unit_zero (S := S16x512) hz, View.ld_unit_zero (S := S1024x16) hz, View.ld_unit_zero (S := S1024x1024) hz]

/-! ## The last column block: the same two steps, and the output written from the stepped accumulators -/

theorem acc_C (hc0 : ¬cond0_0 i) (hc1 : cond0_1 i) (xs0 : Vec F S1024x1024 .f32) (xs1 : Vec F S1024x16 .f32) :
    sout0_C_0 c i arg3 harg3 arg4 harg4 arg5 harg5 arg6 harg6 arg7 harg7 arg8 harg8 arg9 harg9 arg10 harg10 hc0 hc1 x0 x1 x2 x3 x4 xs0 xs1 = k0_pay5 x0 x1 x2 xs0 := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  simp only [View.readAt_eq_ld, harg3.read_unread, harg4.read_unread, harg5.read_unread, harg6.read_unread, harg7.read_unread, harg9.read_unread, harg10.read_unread, View.ld_unit_zero (S := S1024x512) hz, View.ld_unit_zero (S := S8x1024) hz, View.ld_unit_zero (S := S16x512) hz, View.ld_unit_zero (S := S1024x16) hz, View.ld_unit_zero (S := S1024x1024) hz]

theorem xa_C (hc0 : ¬cond0_0 i) (hc1 : cond0_1 i) (xs0 : Vec F S1024x1024 .f32) (xs1 : Vec F S1024x16 .f32) :
    sout0_C_1 c i arg3 harg3 arg4 harg4 arg5 harg5 arg6 harg6 arg7 harg7 arg8 harg8 arg9 harg9 arg10 harg10 hc0 hc1 x0 x1 x2 x3 x4 xs0 xs1 = k0_pay6 x0 x3 xs1 := by
  unfold sout0_C_1
  rw [View.read_writes_eq_canon _ _ _ (scover0_C_1 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  simp only [View.readAt_eq_ld, harg3.read_unread, harg4.read_unread, harg5.read_unread, harg6.read_unread, harg7.read_unread, harg9.read_unread, harg10.read_unread, View.ld_unit_zero (S := S1024x512) hz, View.ld_unit_zero (S := S8x1024) hz, View.ld_unit_zero (S := S16x512) hz, View.ld_unit_zero (S := S1024x16) hz, View.ld_unit_zero (S := S1024x1024) hz]

theorem out_C (hc0 : ¬cond0_0 i) (hc1 : cond0_1 i) (xs0 : Vec F S1024x1024 .f32) (xs1 : Vec F S1024x16 .f32) :
    out0_C_5 c i arg3 harg3 arg4 harg4 arg5 harg5 arg6 harg6 arg7 harg7 arg8 harg8 arg9 harg9 arg10 harg10 hc0 hc1 x0 x1 x2 x3 x4 xs0 xs1
      = k0_pay1 x4 (k0_pay6 x0 x3 xs1) (k0_pay5 x0 x1 x2 xs0) := by
  unfold out0_C_5
  rw [View.read_writes_eq_canon _ _ _ (cover0_C_5 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  rw [View.readCov_unit_zero (S := S1024x16) _ hz, View.readCov_unit_zero (S := S1024x1024) _ hz]
  simp only [View.readAt_eq_ld, harg3.read_unread, harg4.read_unread, harg5.read_unread, harg6.read_unread, harg7.read_unread, harg9.read_unread, harg10.read_unread, View.ld_unit_zero (S := S1024x512) hz, View.ld_unit_zero (S := S8x1024) hz, View.ld_unit_zero (S := S16x512) hz, View.ld_unit_zero (S := S1024x16) hz, View.ld_unit_zero (S := S1024x1024) hz]

/-! ## The first column block: the accumulators are zeroed, then stepped -/

theorem acc_A (hc0 : cond0_0 i) (hc1 : ¬cond0_1 i) :
    sout0_A_0 c i arg3 harg3 arg4 harg4 arg5 harg5 arg6 harg6 arg7 harg7 arg8 harg8 arg9 harg9 arg10 harg10 hc0 hc1 x0 x1 x2 x3 x4 = k0_pay5 x0 x1 x2 k0_pay2 := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, harg5.read_unread, harg6.read_unread, harg7.read_unread, harg9.read_unread, harg10.read_unread, View.ld_unit_zero (S := S1024x512) hz, View.ld_unit_zero (S := S8x1024) hz, View.ld_unit_zero (S := S16x512) hz, View.ld_unit_zero (S := S1024x16) hz, View.ld_unit_zero (S := S1024x1024) hz]

theorem xa_A (hc0 : cond0_0 i) (hc1 : ¬cond0_1 i) :
    sout0_A_1 c i arg3 harg3 arg4 harg4 arg5 harg5 arg6 harg6 arg7 harg7 arg8 harg8 arg9 harg9 arg10 harg10 hc0 hc1 x0 x1 x2 x3 x4 = k0_pay6 x0 x3 k0_pay3 := by
  unfold sout0_A_1
  rw [View.read_writes_eq_canon _ _ _ (scover0_A_1 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1024x16) hz, View.readCov_unit_zero (S := S1024x16) _ hz]
  simp only [View.readAt_eq_ld, harg3.read_unread, harg4.read_unread, harg5.read_unread, harg6.read_unread, harg7.read_unread, harg9.read_unread, harg10.read_unread, View.ld_unit_zero (S := S1024x512) hz, View.ld_unit_zero (S := S8x1024) hz, View.ld_unit_zero (S := S16x512) hz, View.ld_unit_zero (S := S1024x16) hz, View.ld_unit_zero (S := S1024x1024) hz]

end Cert.KernelIdeal.Body

end
-- ==== Proof.Payload.lean ====
/-
  The kernel body's three stored values read at one index, on the extended reals.
  A block of activations `x` (1024 rows, 512 of the 4096 columns), the matching block of integer codes `q`
  (1024 output features by the same 512 columns), the eight scale rows `s` of that column range (one per group of
  64 columns, laid out group-major), a block of the adapter's `A` (16 by 512) and of its `B` (1024 by 16):
    the base accumulator gains   ∑ₖ x[p,k] · (q[r,k] · s[k / 64, r]),
    the adapter accumulator gains ∑ₖ x[p,k] · A[ρ,k],
    and the last step writes      acc[p,r] + (∑ρ xa[p,ρ] · B[r,ρ]) · 2.
  The narrowing to bf16 before each product is the identity on the extended reals, the transposes and reshapes only
  rename indices, and a product into a zero accumulator is the plain sum over the contracted axis.
-/
import proofs.«129875_j63350767616598_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- The scale group of a column inside a block of 512: groups are 64 columns wide. -/
abbrev grp (kk : Fin 512) : Fin 8 := ⟨kk.val / 64, by have := kk.isLt; omega⟩

/-- The position of a column inside its group. -/
abbrev lane (kk : Fin 512) : Fin 64 := ⟨kk.val % 64, Nat.mod_lt _ (by decide)⟩

/-- A (1024 × 512) by (512 × 1024) product into zero, at (p, r): the sum over the 512 contracted columns. -/
theorem matmul_base_apply (a : FVec Ideal S1024x512 .bf16) (b : FVec Ideal S512x1024 .bf16) (p r : Fin 1024) :
    matmul dot_S1024x512_S512x1024_S1024x1024_1_0_0_1_n_n none a b (constant S1024x1024 .f32 0x00000000#32) (ix2 p r)
      = ∑ kk : Fin 512, a (ix2 p kk) * b (ix2 kk r) := by
  simp only [matmul]
  rw [Ideal.matmul_constant_zero_apply,
    ← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 p r)
      ((contrEquiv1 dot_S1024x512_S512x1024_S1024x1024_1_0_0_1_n_n 512 rfl rfl).symm k) = ix2 p k :=
    funext fun c => Fin.ext (by
      match c with
      | ⟨0, _⟩ => rfl
      | ⟨1, _⟩ => exact (dot_S1024x512_S512x1024_S1024x1024_1_0_0_1_n_n.lhsIdx_val_of_single rfl _ _).trans hk)
  have er : dot_S1024x512_S512x1024_S1024x1024_1_0_0_1_n_n.rhsIdx (ix2 p r)
      ((contrEquiv1 dot_S1024x512_S512x1024_S1024x1024_1_0_0_1_n_n 512 rfl rfl).symm k) = ix2 k r :=
    funext fun c => Fin.ext (by
      match c with
      | ⟨0, _⟩ => exact (dot_S1024x512_S512x1024_S1024x1024_1_0_0_1_n_n.rhsIdx_val_of_single rfl _ _).trans hk
      | ⟨1, _⟩ => rfl)
  rw [el, er]

/-- A (1024 × 512) by (512 × 16) product into zero, at (p, ρ). -/
theorem matmul_down_apply (a : FVec Ideal S1024x512 .bf16) (b : FVec Ideal S512x16 .bf16) (p : Fin 1024) (ρ : Fin 16) :
    matmul dot_S1024x512_S512x16_S1024x16_1_0_0_1_n_n none a b (constant S1024x16 .f32 0x00000000#32) (ix2 p ρ)
      = ∑ kk : Fin 512, a (ix2 p kk) * b (ix2 kk ρ) := by
  simp only [matmul]
  rw [Ideal.matmul_constant_zero_apply,
    ← Equiv.sum_comp (contrEquiv1 dot_S1024x512_S512x16_S1024x16_1_0_0_1_n_n 512 rfl rfl).symm]
  refine Finset.sum_congr rfl fun k _ => ?_
  have hk := contrEquiv1_symm_val dot_S1024x512_S512x16_S1024x16_1_0_0_1_n_n 512 rfl rfl k
  have el : dot_S1024x512_S512x16_S1024x16_1_0_0_1_n_n.lhsIdx (ix2 p ρ)
      ((contrEquiv1 dot_S1024x512_S512x16_S1024x16_1_0_0_1_n_n 512 rfl rfl).symm k) = ix2 p k :=
    funext fun c => Fin.ext (by
      match c with
      | ⟨0, _⟩ => rfl
      | ⟨1, _⟩ => exact (dot_S1024x512_S512x16_S1024x16_1_0_0_1_n_n.lhsIdx_val_of_single rfl _ _).trans hk)
  have er : dot_S1024x512_S512x16_S1024x16_1_0_0_1_n_n.rhsIdx (ix2 p ρ)
      ((contrEquiv1 dot_S1024x512_S512x16_S1024x16_1_0_0_1_n_n 512 rfl rfl).symm k) = ix2 k ρ :=
    funext fun c => Fin.ext (by
      match c with
      | ⟨0, _⟩ => exact (dot_S1024x512_S512x16_S1024x16_1_0_0_1_n_n.rhsIdx_val_of_single rfl _ _).trans hk
      | ⟨1, _⟩ => rfl)
  rw [el, er]

/-- A (1024 × 16) by (16 × 1024) product into zero, at (p, r): the sum over the rank-16 axis. -/
theorem matmul_up_apply (a : FVec Ideal S1024x16 .bf16) (b : FVec Ideal S16x1024 .bf16) (p r : Fin 1024) :
    matmul dot_S1024x16_S16x1024_S1024x1024_1_0_0_1_n_n none a b (constant S1024x1024 .f32 0x00000000#32) (ix2 p r)
      = ∑ ρ : Fin 16, a (ix2 p ρ) * b (ix2 ρ r) := by
  simp only [matmul]
  rw [Ideal.matmul_constant_zero_apply,
    ← Equiv.sum_comp (contrEquiv1 dot_S1024x16_S16x1024_S1024x1024_1_0_0_1_n_n 16 rfl rfl).symm]
  refine Finset.sum_congr rfl fun k _ => ?_
  have hk := contrEquiv1_symm_val dot_S1024x16_S16x1024_S1024x1024_1_0_0_1_n_n 16 rfl rfl k
  have el : dot_S1024x16_S16x1024_S1024x1024_1_0_0_1_n_n.lhsIdx (ix2 p r)
      ((contrEquiv1 dot_S1024x16_S16x1024_S1024x1024_1_0_0_1_n_n 16 rfl rfl).symm k) = ix2 p k :=
    funext fun c => Fin.ext (by
      match c with
      | ⟨0, _⟩ => rfl
      | ⟨1, _⟩ => exact (dot_S1024x16_S16x1024_S1024x1024_1_0_0_1_n_n.lhsIdx_val_of_single rfl _ _).trans hk)
  have er : dot_S1024x16_S16x1024_S1024x1024_1_0_0_1_n_n.rhsIdx (ix2 p r)
      ((contrEquiv1 dot_S1024x16_S16x1024_S1024x1024_1_0_0_1_n_n 16 rfl rfl).symm k) = ix2 k r :=
    funext fun c => Fin.ext (by
      match c with
      | ⟨0, _⟩ => exact (dot_S1024x16_S16x1024_S1024x1024_1_0_0_1_n_n.rhsIdx_val_of_single rfl _ _).trans hk
      | ⟨1, _⟩ => rfl)
  rw [el, er]

/-- The dequantised weight block at (r, kk): the code at (r, kk) times the scale of kk's group for output feature r.
    The codes are regrouped as (feature, group, lane), the scales — stored group-major — are transposed to
    (feature, group) and repeated along the lane, and the product is flattened back to (feature, column). -/
theorem dequant_apply (q : Vec Ideal S1024x512 .i32) (sc : FVec Ideal S8x1024 .f32)
    (ht : S8x1024.Transposes [1, 0] S1024x8) (h1 : S1024x512.ShapeCasts S1024x8x64)
    (h2 : S1024x8.ShapeCasts S1024x8x1) (hb : S1024x8x1.Broadcasts S1024x8x64) (h3 : S1024x8x64.ShapeCasts S1024x512)
    (r : Fin 1024) (kk : Fin 512) :
    shapeCast S1024x512 (mulf (shapeCast S1024x8x64 (sitofp (F := Ideal) .f32 q) h1)
        (broadcastTo S1024x8x64 (shapeCast S1024x8x1 (transpose S1024x8 [1, 0] sc ht) h2) hb)) h3 (ix2 r kk)
      = FloatOps.sitofp (F := Ideal) .f32 (q (ix2 r kk)) * sc (ix2 (grp kk) r) := by
  have hr := r.isLt
  have hkk := kk.isLt
  rw [shapeCast_apply _ h3 (ix2 r kk) (ix3 r (grp kk) (lane kk)) (by
    rewrite [Shape.rowMajor_val_three, Shape.rowMajor_val_two]
    show (r.val * 8 + kk.val / 64) * 64 + kk.val % 64 = r.val * 512 + kk.val
    omega)]
  rw [mulf_apply]
  rw [shapeCast_apply _ h1 (ix3 r (grp kk) (lane kk)) (ix2 r kk) (by
    rewrite [Shape.rowMajor_val_two, Shape.rowMajor_val_three]
    show r.val * 512 + kk.val = (r.val * 8 + kk.val / 64) * 64 + kk.val % 64
    omega)]
  rw [broadcastTo_apply _ hb (ix3 r (grp kk) (lane kk)) (ix3 r (grp kk) (0 : Fin 1)) (fun c => by
    match c with
    | ⟨0, _⟩ => show r.val = if (1024 : Nat) = 1 then 0 else r.val; rw [if_neg (by decide)]
    | ⟨1, _⟩ => show kk.val / 64 = if (8 : Nat) = 1 then 0 else kk.val / 64; rw [if_neg (by decide)]
    | ⟨2, _⟩ => show 0 = if (1 : Nat) = 1 then 0 else kk.val % 64; rw [if_pos rfl])]
  rw [shapeCast_apply _ h2 (ix3 r (grp kk) (0 : Fin 1)) (ix2 r (grp kk)) (by
    rewrite [Shape.rowMajor_val_two, Shape.rowMajor_val_three]
    show r.val * 8 + kk.val / 64 = (r.val * 8 + kk.val / 64) * 1 + 0
    omega)]
  rw [transpose_ix2_apply]
  rfl

/-- The zero block both accumulators start from reads `0` everywhere. -/
theorem pay2_apply (y : S1024x1024.Idx) : k0_pay2 (F := Ideal) y = 0 := by
  unfold k0_pay2
  rw [shapeCast_self]
  exact Ideal.ofBits_zero_f32

theorem pay3_apply (y : S1024x16.Idx) : k0_pay3 (F := Ideal) y = 0 := by
  unfold k0_pay3
  rw [shapeCast_self]
  exact Ideal.ofBits_zero_f32

/-- One step of the base accumulator at (p, r): what it held plus this column block's share of x · Wᵀ. -/
theorem pay5_apply (x0 : Vec Ideal S1024x512 .f32) (x1 : Vec Ideal S1024x512 .i32) (x2 : Vec Ideal S8x1024 .f32)
    (acc : Vec Ideal S1024x1024 .f32) (p r : Fin 1024) :
    k0_pay5 (F := Ideal) x0 x1 x2 acc (ix2 p r)
      = acc (ix2 p r) + ∑ kk : Fin 512, x0 (ix2 p kk) * (FloatOps.sitofp (F := Ideal) .f32 (x1 (ix2 r kk)) * x2 (ix2 (grp kk) r)) := by
  unfold k0_pay5 k0_pay4
  simp only [shapeCast_self]
  rw [addf_apply, matmul_base_apply]
  refine congrArg (acc (ix2 p r) + ·) (Finset.sum_congr rfl fun kk _ => ?_)
  rw [truncf_apply, transpose_ix2_apply, truncf_apply, dequant_apply]

/-- One step of the adapter accumulator at (p, ρ): what it held plus this column block's share of x · Aᵀ. -/
theorem pay6_apply (x0 : Vec Ideal S1024x512 .f32) (x3 : Vec Ideal S16x512 .f32) (xa : Vec Ideal S1024x16 .f32)
    (p : Fin 1024) (ρ : Fin 16) :
    k0_pay6 (F := Ideal) x0 x3 xa (ix2 p ρ) = xa (ix2 p ρ) + ∑ kk : Fin 512, x0 (ix2 p kk) * x3 (ix2 ρ kk) := by
  unfold k0_pay6 k0_pay4
  simp only [shapeCast_self]
  rw [addf_apply, matmul_down_apply]
  refine congrArg (xa (ix2 p ρ) + ·) (Finset.sum_congr rfl fun kk _ => ?_)
  rw [truncf_apply, transpose_ix2_apply, truncf_apply]

/-- The value written out at the last column block, at (p, r): the base accumulator plus twice the adapter's
    xa · Bᵀ (the factor is the printed literal 2.0). -/
theorem pay1_apply (x4 : Vec Ideal S1024x16 .f32) (xa : Vec Ideal S1024x16 .f32) (acc : Vec Ideal S1024x1024 .f32)
    (p r : Fin 1024) :
    k0_pay1 (F := Ideal) x4 xa acc (ix2 p r)
      = acc (ix2 p r) + (∑ ρ : Fin 16, xa (ix2 p ρ) * x4 (ix2 r ρ)) * Ideal.ofBits .f32 0x40000000#32 := by
  unfold k0_pay1
  rw [addf_apply, mulf_apply, matmul_up_apply]
  refine congrArg (acc (ix2 p r) + ·) (congrArg (· * _) (Finset.sum_congr rfl fun ρ _ => ?_))
  rw [truncf_apply, transpose_ix2_apply, truncf_apply]

end Cert.KernelIdeal.Body

end
-- ==== Proof.Fold.lean ====
/-
  The two accumulators over a run of eight column blocks.
  The grid is 8 row tiles × 4 feature tiles × 8 column blocks, the column block innermost, so points
  8q, 8q+1, …, 8q+7 are the eight column blocks of one output tile. Write M(n) for the block product point n adds
  to the base accumulator (and N(n) for the adapter's). The accumulator is zeroed and receives M(8q) at the first
  of them, and receives M(n) on top of what the point before left at each later one: after point 8q+j it holds
  0 + M(8q) + … + M(8q+j). At the last of the eight the output tile is written from both accumulators.
-/
import proofs.«129875_j63350767616598_1_alg».proof.Proof.Gen.KernelIdeal.Frame
import proofs.«129875_j63350767616598_1_alg».proof.Proof.Pieces
import proofs.«129875_j63350767616598_1_alg».proof.Proof.Payload

noncomputable section

namespace Cert.KernelIdeal.Body

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (c : Dev nD)

/-! ## The blocks a point reads, as total functions of the point's number -/

/-- The activations' block at point `n` (anything past the grid: never used). -/
def xAt (n : ℕ) : Vec Ideal S1024x512 .f32 := if h : n < cfg0.N then iblk m c 0 ⟨n, h⟩ else fun _ => 0
/-- The integer codes' block at point `n`. -/
def qAt (n : ℕ) : Vec Ideal S1024x512 .i32 := if h : n < cfg0.N then iblk m c 1 ⟨n, h⟩ else fun _ => 0
/-- The eight scale rows at point `n`. -/
def sAt (n : ℕ) : Vec Ideal S8x1024 .f32 := if h : n < cfg0.N then iblk m c 2 ⟨n, h⟩ else fun _ => 0
/-- The block of the adapter's `A` at point `n`. -/
def aAt (n : ℕ) : Vec Ideal S16x512 .f32 := if h : n < cfg0.N then iblk m c 3 ⟨n, h⟩ else fun _ => 0
/-- The block of the adapter's `B` at point `n`. -/
def bAt (n : ℕ) : Vec Ideal S1024x16 .f32 := if h : n < cfg0.N then iblk m c 4 ⟨n, h⟩ else fun _ => 0

theorem xAt_eq (n : ℕ) (h : n < cfg0.N) : xAt m c n = iblk m c 0 ⟨n, h⟩ := dif_pos h
theorem qAt_eq (n : ℕ) (h : n < cfg0.N) : qAt m c n = iblk m c 1 ⟨n, h⟩ := dif_pos h
theorem sAt_eq (n : ℕ) (h : n < cfg0.N) : sAt m c n = iblk m c 2 ⟨n, h⟩ := dif_pos h
theorem aAt_eq (n : ℕ) (h : n < cfg0.N) : aAt m c n = iblk m c 3 ⟨n, h⟩ := dif_pos h
theorem bAt_eq (n : ℕ) (h : n < cfg0.N) : bAt m c n = iblk m c 4 ⟨n, h⟩ := dif_pos h

/-- What point `n` adds to the base accumulator at (p, r): its column block's share of ∑ₖ x[p,k] · (q[r,k] · s[k/64, r]). -/
def baseAdd (n : ℕ) (pr : Fin 1024 × Fin 1024) : EReal :=
  ∑ kk : Fin 512, xAt m c n (ix2 pr.1 kk) * (FloatOps.sitofp (F := Ideal) .f32 (qAt m c n (ix2 pr.2 kk)) * sAt m c n (ix2 (grp kk) pr.2))

/-- What point `n` adds to the adapter accumulator at (p, ρ): its column block's share of ∑ₖ x[p,k] · A[ρ,k]. -/
def downAdd (n : ℕ) (pρ : Fin 1024 × Fin 16) : EReal :=
  ∑ kk : Fin 512, xAt m c n (ix2 pρ.1 kk) * aAt m c n (ix2 pρ.2 kk)

/-- The base accumulator after point `n`, by coordinates. -/
def accF (n : ℕ) (h : n < cfg0.N) : Fin 1024 × Fin 1024 → EReal := fun pr => (outsAt0 m c n h).2.1 (ix2 pr.1 pr.2)
/-- The adapter accumulator after point `n`, by coordinates. -/
def xaF (n : ℕ) (h : n < cfg0.N) : Fin 1024 × Fin 16 → EReal := fun pρ => (outsAt0 m c n h).2.2 (ix2 pρ.1 pρ.2)

/-! ## What a point leaves in the two accumulators, by its place in the run of eight -/

/-- At the first column block of a run the base accumulator is zeroed and stepped. -/
theorem acc_first (t : Fin cfg0.N) (h8 : t.val % 8 = 0) (h7 : ¬t.val % 8 = 7) :
    (outsAt0 m c t.val t.isLt).2.1 = k0_pay5 (F := Ideal) (iblk m c 0 t) (iblk m c 1 t) (iblk m c 2 t) (k0_pay2 (F := Ideal)) := by
  rw [outsAt0_A m c t h8 h7]
  dsimp only
  exact acc_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) ((hcond0_0 t).mpr h8) (fun hh => h7 ((hcond0_1 t).mp hh))

theorem xa_first (t : Fin cfg0.N) (h8 : t.val % 8 = 0) (h7 : ¬t.val % 8 = 7) :
    (outsAt0 m c t.val t.isLt).2.2 = k0_pay6 (F := Ideal) (iblk m c 0 t) (iblk m c 3 t) (k0_pay3 (F := Ideal)) := by
  rw [outsAt0_A m c t h8 h7]
  dsimp only
  exact xa_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) ((hcond0_0 t).mpr h8) (fun hh => h7 ((hcond0_1 t).mp hh))

/-- At every later column block it is stepped from what the point before left (the last block included). -/
theorem acc_later (t : Fin cfg0.N) (h8 : ¬t.val % 8 = 0) :
    (outsAt0 m c t.val t.isLt).2.1 = k0_pay5 (F := Ideal) (iblk m c 0 t) (iblk m c 1 t) (iblk m c 2 t) (outsAt0 m c (t.val - 1) (Nat.lt_of_le_of_lt (Nat.sub_le _ _) t.isLt)).2.1 := by
  by_cases h7 : t.val % 8 = 7
  · rw [outsAt0_C m c t h8 h7]
    dsimp only
    generalize (outsAt0 m c (t.val - 1) (Nat.lt_of_le_of_lt (Nat.sub_le _ _) t.isLt)) = prev
    exact acc_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) (fun hh => h8 ((hcond0_0 t).mp hh)) ((hcond0_1 t).mpr h7) prev.2.1 prev.2.2
  · rw [outsAt0_B m c t h8 h7]
    dsimp only
    generalize (outsAt0 m c (t.val - 1) (Nat.lt_of_le_of_lt (Nat.sub_le _ _) t.isLt)) = prev
    exact acc_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) (fun hh => h8 ((hcond0_0 t).mp hh)) (fun hh => h7 ((hcond0_1 t).mp hh)) prev.2.1 prev.2.2

theorem xa_later (t : Fin cfg0.N) (h8 : ¬t.val % 8 = 0) :
    (outsAt0 m c t.val t.isLt).2.2 = k0_pay6 (F := Ideal) (iblk m c 0 t) (iblk m c 3 t) (outsAt0 m c (t.val - 1) (Nat.lt_of_le_of_lt (Nat.sub_le _ _) t.isLt)).2.2 := by
  by_cases h7 : t.val % 8 = 7
  · rw [outsAt0_C m c t h8 h7]
    dsimp only
    generalize (outsAt0 m c (t.val - 1) (Nat.lt_of_le_of_lt (Nat.sub_le _ _) t.isLt)) = prev
    exact xa_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) (fun hh => h8 ((hcond0_0 t).mp hh)) ((hcond0_1 t).mpr h7) prev.2.1 prev.2.2
  · rw [outsAt0_B m c t h8 h7]
    dsimp only
    generalize (outsAt0 m c (t.val - 1) (Nat.lt_of_le_of_lt (Nat.sub_le _ _) t.isLt)) = prev
    exact xa_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) (fun hh => h8 ((hcond0_0 t).mp hh)) (fun hh => h7 ((hcond0_1 t).mp hh)) prev.2.1 prev.2.2

/-- At the last column block of a run the output tile is written from the two stepped accumulators. -/
theorem out_last (t : Fin cfg0.N) (h8 : ¬t.val % 8 = 0) (h7 : t.val % 8 = 7) :
    (outsAt0 m c t.val t.isLt).1
      = k0_pay1 (F := Ideal) (iblk m c 4 t) (outsAt0 m c t.val t.isLt).2.2 (outsAt0 m c t.val t.isLt).2.1 := by
  rw [outsAt0_C m c t h8 h7]
  dsimp only
  generalize (outsAt0 m c (t.val - 1) (Nat.lt_of_le_of_lt (Nat.sub_le _ _) t.isLt)) = prev
  rw [xa_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) (fun hh => h8 ((hcond0_0 t).mp hh)) ((hcond0_1 t).mpr h7) prev.2.1 prev.2.2,
    acc_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) (fun hh => h8 ((hcond0_0 t).mp hh)) ((hcond0_1 t).mpr h7) prev.2.1 prev.2.2]
  exact out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) (fun hh => h8 ((hcond0_0 t).mp hh)) ((hcond0_1 t).mpr h7) prev.2.1 prev.2.2

theorem xAt_eq' (t : Fin cfg0.N) : xAt m c t.val = iblk m c 0 t := dif_pos t.isLt
theorem qAt_eq' (t : Fin cfg0.N) : qAt m c t.val = iblk m c 1 t := dif_pos t.isLt
theorem sAt_eq' (t : Fin cfg0.N) : sAt m c t.val = iblk m c 2 t := dif_pos t.isLt
theorem aAt_eq' (t : Fin cfg0.N) : aAt m c t.val = iblk m c 3 t := dif_pos t.isLt
theorem bAt_eq' (t : Fin cfg0.N) : bAt m c t.val = iblk m c 4 t := dif_pos t.isLt

/-! ## The two accumulators in closed form -/

theorem accF_reset (n : ℕ) (h : n < cfg0.N) (h8 : n % 8 = 0) : accF m c n h = fun pr => 0 + baseAdd m c n pr := by
  have h7 : ¬n % 8 = 7 := by omega
  funext pr
  have e := acc_first m c ⟨n, h⟩ h8 h7
  rw [← xAt_eq' m c ⟨n, h⟩, ← qAt_eq' m c ⟨n, h⟩, ← sAt_eq' m c ⟨n, h⟩] at e
  dsimp only at e
  show (outsAt0 m c n h).2.1 (ix2 pr.1 pr.2) = 0 + baseAdd m c n pr
  rw [e, pay5_apply, pay2_apply]
  rfl

theorem accF_step (n : ℕ) (h : n + 1 < cfg0.N) (h8 : ¬(n + 1) % 8 = 0) :
    accF m c (n + 1) h = fun pr => accF m c n (Nat.lt_of_succ_lt h) pr + baseAdd m c (n + 1) pr := by
  funext pr
  have e := acc_later m c ⟨n + 1, h⟩ h8
  rw [← xAt_eq' m c ⟨n + 1, h⟩, ← qAt_eq' m c ⟨n + 1, h⟩, ← sAt_eq' m c ⟨n + 1, h⟩] at e
  dsimp only at e
  show (outsAt0 m c (n + 1) h).2.1 (ix2 pr.1 pr.2) = (outsAt0 m c n (Nat.lt_of_succ_lt h)).2.1 (ix2 pr.1 pr.2) + baseAdd m c (n + 1) pr
  rw [e, pay5_apply]
  rfl

theorem xaF_reset (n : ℕ) (h : n < cfg0.N) (h8 : n % 8 = 0) : xaF m c n h = fun pρ => 0 + downAdd m c n pρ := by
  have h7 : ¬n % 8 = 7 := by omega
  funext pρ
  have e := xa_first m c ⟨n, h⟩ h8 h7
  rw [← xAt_eq' m c ⟨n, h⟩, ← aAt_eq' m c ⟨n, h⟩] at e
  dsimp only at e
  show (outsAt0 m c n h).2.2 (ix2 pρ.1 pρ.2) = 0 + downAdd m c n pρ
  rw [e, pay6_apply, pay3_apply]
  rfl

theorem xaF_step (n : ℕ) (h : n + 1 < cfg0.N) (h8 : ¬(n + 1) % 8 = 0) :
    xaF m c (n + 1) h = fun pρ => xaF m c n (Nat.lt_of_succ_lt h) pρ + downAdd m c (n + 1) pρ := by
  funext pρ
  have e := xa_later m c ⟨n + 1, h⟩ h8
  rw [← xAt_eq' m c ⟨n + 1, h⟩, ← aAt_eq' m c ⟨n + 1, h⟩] at e
  dsimp only at e
  show (outsAt0 m c (n + 1) h).2.2 (ix2 pρ.1 pρ.2) = (outsAt0 m c n (Nat.lt_of_succ_lt h)).2.2 (ix2 pρ.1 pρ.2) + downAdd m c (n + 1) pρ
  rw [e, pay6_apply]
  rfl

/-- The base accumulator after point `t`, at (p, r): zero plus the block products of the run so far. -/
theorem acc_closed (t : Fin cfg0.N) (p r : Fin 1024) :
    (outsAt0 m c t.val t.isLt).2.1 (ix2 p r)
      = 0 + ∑ s ∈ Finset.range (t.val % 8 + 1), baseAdd m c (8 * (t.val / 8) + s) (p, r) := by
  have hN : cfg0.N = 256 := N_0
  have hlt := t.isLt
  have hb : 8 * (t.val / 8) + t.val % 8 < cfg0.N := by omega
  have key := Pipeline.eq_accAt_of_mod (accF m c) 8 (fun n _ pr => 0 + baseAdd m c n pr)
    (fun n _ acc pr => acc pr + baseAdd m c n pr) (accF_reset m c) (accF_step m c) (by decide) t.val t.isLt hb
  have k2 := Pipeline.accAt_add_apply (N := cfg0.N) (fun n _ pr => 0 + baseAdd m c n pr)
    (fun n _ acc pr => acc pr + baseAdd m c n pr) (fun _ => 0) (baseAdd m c) (8 * (t.val / 8)) 7
    (fun _ _ => rfl) (fun _ _ _ _ _ _ => rfl) (t.val % 8) (by omega) hb (p, r)
  show accF m c t.val t.isLt (p, r) = _
  exact (congrFun key (p, r)).trans k2

/-- The adapter accumulator after point `t`, at (p, ρ). -/
theorem xa_closed (t : Fin cfg0.N) (p : Fin 1024) (ρ : Fin 16) :
    (outsAt0 m c t.val t.isLt).2.2 (ix2 p ρ)
      = 0 + ∑ s ∈ Finset.range (t.val % 8 + 1), downAdd m c (8 * (t.val / 8) + s) (p, ρ) := by
  have hN : cfg0.N = 256 := N_0
  have hlt := t.isLt
  have hb : 8 * (t.val / 8) + t.val % 8 < cfg0.N := by omega
  have key := Pipeline.eq_accAt_of_mod (xaF m c) 8 (fun n _ pρ => 0 + downAdd m c n pρ)
    (fun n _ acc pρ => acc pρ + downAdd m c n pρ) (xaF_reset m c) (xaF_step m c) (by decide) t.val t.isLt hb
  have k2 := Pipeline.accAt_add_apply (N := cfg0.N) (fun n _ pρ => 0 + downAdd m c n pρ)
    (fun n _ acc pρ => acc pρ + downAdd m c n pρ) (fun _ => 0) (downAdd m c) (8 * (t.val / 8)) 7
    (fun _ _ => rfl) (fun _ _ _ _ _ _ => rfl) (t.val % 8) (by omega) hb (p, ρ)
  show xaF m c t.val t.isLt (p, ρ) = _
  exact (congrFun key (p, ρ)).trans k2

/-- The output tile written at the last column block of a run, at (p, r). -/
theorem out_closed (t : Fin cfg0.N) (h7 : t.val % 8 = 7) (p r : Fin 1024) :
    (outsAt0 m c t.val t.isLt).1 (ix2 p r)
      = (0 + ∑ s ∈ Finset.range 8, baseAdd m c (8 * (t.val / 8) + s) (p, r))
        + (∑ ρ : Fin 16, (0 + ∑ s ∈ Finset.range 8, downAdd m c (8 * (t.val / 8) + s) (p, ρ)) * bAt m c t.val (ix2 r ρ))
          * Ideal.ofBits .f32 0x40000000#32 := by
  have h8 : ¬t.val % 8 = 0 := by omega
  rw [out_last m c t h8 h7, ← bAt_eq' m c t, pay1_apply, acc_closed m c t p r, h7]
  refine congrArg (_ + ·) (congrArg (· * _) (Finset.sum_congr rfl fun ρ _ => ?_))
  rw [xa_closed m c t p ρ, h7]

end Cert.KernelIdeal.Body

end
-- ==== Proof.Blocks.lean ====
/-
  Where each window's block sits in its array.
  Point t of the grid is (row tile, feature tile, column block) = (t / 32, t / 8 mod 4, t mod 8). The activations'
  window takes rows 1024·(t/32) … and columns 512·(t mod 8) …; the codes' window features 1024·(t/8 mod 4) … and the
  same columns; the scales' window (group-major) groups 8·(t mod 8) … and the same features; the adapter's A all 16
  rows and the same columns; its B the same features and all 16 columns; the output rows and features of the tile.
  The two arrays the host prepares before the call are the activations flattened to 8192 rows and the scales
  transposed to group-major.
-/
import proofs.«129875_j63350767616598_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Body

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (c : Dev nD)

/-- The printed index maps in closed form, decided over the grid's 256 points. -/
theorem idx_facts : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = t.val % 8 ∧ win0_2.index t (1 : Fin 2) = t.val / 8 % 4
    ∧ win0_3.index t (0 : Fin 2) = 0 ∧ win0_3.index t (1 : Fin 2) = t.val % 8
    ∧ win0_4.index t (0 : Fin 2) = t.val / 8 % 4 ∧ win0_4.index t (1 : Fin 2) = 0
    ∧ win0_5.index t (0 : Fin 2) = t.val / 32 ∧ win0_5.index t (1 : Fin 2) = t.val / 8 % 4 :=
  (by decide +kernel : ∀ t : Fin grid0.N, _)

/-- A point is below 256. -/
theorem lt_256 (t : Fin cfg0.N) : t.val < 256 := lt_of_lt_of_eq t.isLt (show cfg0.N = 256 from N_0)

/-- Row `p` of row tile `t / 32`. -/
abbrev rowOf (t : Fin cfg0.N) (p : Fin 1024) : Fin 8192 := ⟨1024 * (t.val / 32) + p.val, by have := lt_256 t; have := p.isLt; omega⟩
/-- Output feature `r` of feature tile `t / 8 mod 4`. -/
abbrev colOf (t : Fin cfg0.N) (r : Fin 1024) : Fin 4096 := ⟨1024 * (t.val / 8 % 4) + r.val, by have := r.isLt; omega⟩
/-- Column `kk` of column block `t mod 8`. -/
abbrev kOf (t : Fin cfg0.N) (kk : Fin 512) : Fin 4096 := ⟨512 * (t.val % 8) + kk.val, by have := kk.isLt; omega⟩
/-- Scale group `g` of column block `t mod 8` (eight groups of 64 columns per block). -/
abbrev gOf (t : Fin cfg0.N) (g : Fin 8) : Fin 64 := ⟨8 * (t.val % 8) + g.val, by have := g.isLt; omega⟩

/-! ## The arrays the host prepares before the call -/

/-- The activations as the call finds them: the argument flattened to 8192 rows. -/
theorem V_flat : (V m c main_v0 : S8192x4096.Idx → EReal)
    = shapeCast S8192x4096 (m ((c : Thread nD τ).loc main_arg0)) shapeCasts_S4x2048x4096_S8192x4096 := by
  show StableHlo.after hostOps0 (fun b => m (c, b)) (Proc.devRef .tc main_v0) = _
  after_results; rfl

/-- The scales as the call finds them: the argument transposed to group-major. -/
theorem V_scalesT : (V m c main_v1 : S64x4096.Idx → EReal)
    = transpose S64x4096 [1, 0] (m ((c : Thread nD τ).loc main_arg2)) transposes_S4096x64_S64x4096_1_0 := by
  show StableHlo.after hostOps0 (fun b => m (c, b)) (Proc.devRef .tc main_v1) = _
  after_results

/-! ## Each window's block, in its array's coordinates -/

theorem read_x (t : Fin cfg0.N) (p : Fin 1024) (kk : Fin 512) :
    iblk m c 0 t (ix2 p kk) = V m c main_v0 (ix2 (rowOf t p) (kOf t kk)) := by
  obtain ⟨e0, e1, -⟩ := idx_facts t
  unfold iblk
  rw [View.read_apply]
  show V m c main_v0 (((cfg0.win 0).blk t).view.emb (ix2 p kk)) = _
  refine congrArg (V m c main_v0) (funext fun a => Fin.ext ?_)
  match a with
  | ⟨0, _⟩ => show win0_0.index t (0 : Fin 2) * 1024 + 1 * p.val = 1024 * (t.val / 32) + p.val; omega
  | ⟨1, _⟩ => show win0_0.index t (1 : Fin 2) * 512 + 1 * kk.val = 512 * (t.val % 8) + kk.val; omega

theorem read_q (t : Fin cfg0.N) (r : Fin 1024) (kk : Fin 512) :
    iblk m c 1 t (ix2 r kk) = V m c main_arg1 (ix2 (colOf t r) (kOf t kk)) := by
  obtain ⟨-, -, e0, e1, -⟩ := idx_facts t
  unfold iblk
  rw [View.read_apply]
  show V m c main_arg1 (((cfg0.win 1).blk t).view.emb (ix2 r kk)) = _
  refine congrArg (V m c main_arg1) (funext fun a => Fin.ext ?_)
  match a with
  | ⟨0, _⟩ => show win0_1.index t (0 : Fin 2) * 1024 + 1 * r.val = 1024 * (t.val / 8 % 4) + r.val; omega
  | ⟨1, _⟩ => show win0_1.index t (1 : Fin 2) * 512 + 1 * kk.val = 512 * (t.val % 8) + kk.val; omega

theorem read_s (t : Fin cfg0.N) (g : Fin 8) (r : Fin 1024) :
    iblk m c 2 t (ix2 g r) = V m c main_v1 (ix2 (gOf t g) (colOf t r)) := by
  obtain ⟨-, -, -, -, e0, e1, -⟩ := idx_facts t
  unfold iblk
  rw [View.read_apply]
  show V m c main_v1 (((cfg0.win 2).blk t).view.emb (ix2 g r)) = _
  refine congrArg (V m c main_v1) (funext fun a => Fin.ext ?_)
  match a with
  | ⟨0, _⟩ => show win0_2.index t (0 : Fin 2) * 8 + 1 * g.val = 8 * (t.val % 8) + g.val; omega
  | ⟨1, _⟩ => show win0_2.index t (1 : Fin 2) * 1024 + 1 * r.val = 1024 * (t.val / 8 % 4) + r.val; omega

theorem read_a (t : Fin cfg0.N) (ρ : Fin 16) (kk : Fin 512) :
    iblk m c 3 t (ix2 ρ kk) = V m c main_arg3 (ix2 ρ (kOf t kk)) := by
  obtain ⟨-, -, -, -, -, -, e0, e1, -⟩ := idx_facts t
  unfold iblk
  rw [View.read_apply]
  show V m c main_arg3 (((cfg0.win 3).blk t).view.emb (ix2 ρ kk)) = _
  refine congrArg (V m c main_arg3) (funext fun a => Fin.ext ?_)
  match a with
  | ⟨0, _⟩ => show win0_3.index t (0 : Fin 2) * 16 + 1 * ρ.val = ρ.val; omega
  | ⟨1, _⟩ => show win0_3.index t (1 : Fin 2) * 512 + 1 * kk.val = 512 * (t.val % 8) + kk.val; omega

theorem read_b (t : Fin cfg0.N) (r : Fin 1024) (ρ : Fin 16) :
    iblk m c 4 t (ix2 r ρ) = V m c main_arg4 (ix2 (colOf t r) ρ) := by
  obtain ⟨-, -, -, -, -, -, -, -, e0, e1, -⟩ := idx_facts t
  unfold iblk
  rw [View.read_apply]
  show V m c main_arg4 (((cfg0.win 4).blk t).view.emb (ix2 r ρ)) = _
  refine congrArg (V m c main_arg4) (funext fun a => Fin.ext ?_)
  match a with
  | ⟨0, _⟩ => show win0_4.index t (0 : Fin 2) * 1024 + 1 * r.val = 1024 * (t.val / 8 % 4) + r.val; omega
  | ⟨1, _⟩ => show win0_4.index t (1 : Fin 2) * 16 + 1 * ρ.val = ρ.val; omega

end Cert.KernelIdeal.Body

end
-- ==== Proof.Spec.lean ====
/-
  The result as one function of the argument arrays, index by index, on the extended reals, and the one law that
  joins a sum taken block by block to the whole sum.

  With x flattened to 8192 rows of 4096 columns, the codes q (4096 output features by 4096 columns), the scales
  laid out group-major (64 groups of 64 columns by 4096 features), the adapter's A (16 by 4096) and B (4096 by 16):

      out[row, col] = ∑ₖ x[row,k] · (q[col,k] · s[k / 64, col])  +  (∑ρ (∑ₖ x[row,k] · A[ρ,k]) · B[col,ρ]) · 2 .

  Only addition's commutativity and associativity are used to regroup the sums over k, so nothing here needs the
  inputs to be finite.
-/
import Idealize.ShloMosaic.PureOps.Ideal
import Idealize.ShloMosaic.Lib.ValueIdx

noncomputable section

namespace Cert.QLora

open Idealize.ShloMosaic Idealize.ShloMosaic.ValueIdx

/-- A sum over 4096 columns is the sum over 8 blocks of the sums over each block's 512 columns. -/
theorem sum_blocks {M : Type*} [AddCommMonoid M] (f : Fin 4096 → M) :
    ∑ s : Fin 8, ∑ kk : Fin 512, f ⟨512 * s.val + kk.val, by have := s.isLt; have := kk.isLt; omega⟩ = ∑ k : Fin 4096, f k := by
  refine (Fintype.sum_prod_type' (fun (s : Fin 8) (kk : Fin 512) =>
    f ⟨512 * s.val + kk.val, by have := s.isLt; have := kk.isLt; omega⟩)).symm.trans ?_
  exact Fintype.sum_equiv (finProdFinEquiv (m := 8) (n := 512)) _ f
    (fun x => congrArg f (Fin.ext (by
      show 512 * x.1.val + x.2.val = (finProdFinEquiv (m := 8) (n := 512) x).val
      rw [finProdFinEquiv_apply_val]; omega)))

/-- The scale group of a column: groups are 64 columns wide. -/
abbrev grp64 (k : Fin 4096) : Fin 64 := ⟨k.val / 64, by have := k.isLt; omega⟩

/-- One term of the base layer's sum: the activation times the dequantised weight. -/
def baseTerm (X : (⟨2, ![8192, 4096]⟩ : Shape).Idx → EReal) (Q : (⟨2, ![4096, 4096]⟩ : Shape).Idx → BitVec 32)
    (ST : (⟨2, ![64, 4096]⟩ : Shape).Idx → EReal) (row : Fin 8192) (col : Fin 4096) (k : Fin 4096) : EReal :=
  X (ix2 row k) * (FloatOps.sitofp (F := Ideal) .f32 (Q (ix2 col k)) * ST (ix2 (grp64 k) col))

/-- One term of the adapter's first projection. -/
def downTerm (X : (⟨2, ![8192, 4096]⟩ : Shape).Idx → EReal) (A : (⟨2, ![16, 4096]⟩ : Shape).Idx → EReal)
    (row : Fin 8192) (ρ : Fin 16) (k : Fin 4096) : EReal :=
  X (ix2 row k) * A (ix2 ρ k)

/-- The result at (row, col). -/
def entry (X : (⟨2, ![8192, 4096]⟩ : Shape).Idx → EReal) (Q : (⟨2, ![4096, 4096]⟩ : Shape).Idx → BitVec 32)
    (ST : (⟨2, ![64, 4096]⟩ : Shape).Idx → EReal) (A : (⟨2, ![16, 4096]⟩ : Shape).Idx → EReal)
    (B : (⟨2, ![4096, 16]⟩ : Shape).Idx → EReal) (row : Fin 8192) (col : Fin 4096) : EReal :=
  (∑ k : Fin 4096, baseTerm X Q ST row col k)
    + (∑ ρ : Fin 16, (∑ k : Fin 4096, downTerm X A row ρ k) * B (ix2 col ρ)) * Ideal.ofBits .f32 0x40000000#32

/-- The result as an 8192 × 4096 array. -/
def result (X : (⟨2, ![8192, 4096]⟩ : Shape).Idx → EReal) (Q : (⟨2, ![4096, 4096]⟩ : Shape).Idx → BitVec 32)
    (ST : (⟨2, ![64, 4096]⟩ : Shape).Idx → EReal) (A : (⟨2, ![16, 4096]⟩ : Shape).Idx → EReal)
    (B : (⟨2, ![4096, 16]⟩ : Shape).Idx → EReal) : (⟨2, ![8192, 4096]⟩ : Shape).Idx → EReal :=
  fun j => entry X Q ST A B (j 0) (j 1)

end Cert.QLora

end
-- ==== Proof.Final.lean ====
/-
  The kernel's result array.
  At the last of a run's eight column blocks the tile (row tile, feature tile) of the output is written from the two
  accumulators. The eight block products of the run are the eight blocks of 512 of the sum over all 4096 columns,
  so the tile's entry (p, r) is the result function at (1024·rowtile + p, 1024·featuretile + r). The 8 × 4 tiles
  cover the 8192 × 4096 output, each written at the one point that ends its run, and the host then reshapes the
  output to 4 × 2048 × 4096.
-/
import proofs.«129875_j63350767616598_1_alg».proof.Proof.Gen.KernelIdeal.Frame
import proofs.«129875_j63350767616598_1_alg».proof.Proof.Fold
import proofs.«129875_j63350767616598_1_alg».proof.Proof.Blocks
import proofs.«129875_j63350767616598_1_alg».proof.Proof.Spec

noncomputable section

namespace Cert.KernelIdeal.Body

open Cert.KernelIdeal Cert.KernelIdeal.Gen Idealize.ShloMosaic Idealize.ShloMosaic.TcCoe Idealize.SL.Sem
open Idealize.ShloMosaic.ValueIdx
open Idealize.ShloMosaic.Pipeline (Dat)
open Cert.QLora (baseTerm downTerm entry result grp64 sum_blocks)

variable (m : (ℓ : Loc nD τ sig) → Buf (Elt Ideal) ℓ) (c : Dev nD)

/-! ## The arrays as the call finds them -/

/-- The activations, flattened to 8192 rows. -/
def X2 : S8192x4096.Idx → EReal := V m c main_v0
/-- The integer codes. -/
def Qa : S4096x4096.Idx → BitVec 32 := V m c main_arg1
/-- The scales, group-major. -/
def STa : S64x4096.Idx → EReal := V m c main_v1
/-- The adapter's A. -/
def Aa : S16x4096.Idx → EReal := V m c main_arg3
/-- The adapter's B. -/
def Ba : S4096x16.Idx → EReal := V m c main_arg4

/-- The result function of those arrays. -/
def G : S8192x4096.Idx → EReal := result (X2 m c) (Qa m c) (STa m c) (Aa m c) (Ba m c)

/-! ## A point's block products, in the arrays' coordinates -/

/-- Column `kk` of the `s`-th block of 512. -/
abbrev kAt (s : Fin 8) (kk : Fin 512) : Fin 4096 := ⟨512 * s.val + kk.val, by have := s.isLt; have := kk.isLt; omega⟩

theorem baseAdd_eq (t : Fin cfg0.N) (s : Fin 8) (p r : Fin 1024) :
    baseAdd m c (8 * (t.val / 8) + s.val) (p, r)
      = ∑ kk : Fin 512, baseTerm (X2 m c) (Qa m c) (STa m c) (rowOf t p) (colOf t r) (kAt s kk) := by
  have hN : cfg0.N = 256 := N_0
  have ht := t.isLt
  have hs := s.isLt
  have hn : 8 * (t.val / 8) + s.val < cfg0.N := by omega
  unfold baseAdd
  rw [xAt_eq m c _ hn, qAt_eq m c _ hn, sAt_eq m c _ hn]
  refine Finset.sum_congr rfl fun kk _ => ?_
  have hkk := kk.isLt
  dsimp only
  rw [read_x m c ⟨_, hn⟩ p kk, read_q m c ⟨_, hn⟩ r kk, read_s m c ⟨_, hn⟩ (grp kk) r]
  unfold baseTerm X2 Qa STa
  have e1 : rowOf ⟨8 * (t.val / 8) + s.val, hn⟩ p = rowOf t p :=
    Fin.ext (by show 1024 * ((8 * (t.val / 8) + s.val) / 32) + p.val = 1024 * (t.val / 32) + p.val; omega)
  have e2 : colOf ⟨8 * (t.val / 8) + s.val, hn⟩ r = colOf t r :=
    Fin.ext (by show 1024 * ((8 * (t.val / 8) + s.val) / 8 % 4) + r.val = 1024 * (t.val / 8 % 4) + r.val; omega)
  have e3 : kOf ⟨8 * (t.val / 8) + s.val, hn⟩ kk = kAt s kk :=
    Fin.ext (by show 512 * ((8 * (t.val / 8) + s.val) % 8) + kk.val = 512 * s.val + kk.val; omega)
  have e4 : gOf ⟨8 * (t.val / 8) + s.val, hn⟩ (grp kk) = grp64 (kAt s kk) :=
    Fin.ext (by show 8 * ((8 * (t.val / 8) + s.val) % 8) + kk.val / 64 = (512 * s.val + kk.val) / 64; omega)
  rw [e1, e2, e3, e4]

theorem downAdd_eq (t : Fin cfg0.N) (s : Fin 8) (p : Fin 1024) (ρ : Fin 16) :
    downAdd m c (8 * (t.val / 8) + s.val) (p, ρ)
      = ∑ kk : Fin 512, downTerm (X2 m c) (Aa m c) (rowOf t p) ρ (kAt s kk) := by
  have hN : cfg0.N = 256 := N_0
  have ht := t.isLt
  have hs := s.isLt
  have hn : 8 * (t.val / 8) + s.val < cfg0.N := by omega
  unfold downAdd
  rw [xAt_eq m c _ hn, aAt_eq m c _ hn]
  refine Finset.sum_congr rfl fun kk _ => ?_
  have hkk := kk.isLt
  dsimp only
  rw [read_x m c ⟨_, hn⟩ p kk, read_a m c ⟨_, hn⟩ ρ kk]
  unfold downTerm X2 Aa
  have e1 : rowOf ⟨8 * (t.val / 8) + s.val, hn⟩ p = rowOf t p :=
    Fin.ext (by show 1024 * ((8 * (t.val / 8) + s.val) / 32) + p.val = 1024 * (t.val / 32) + p.val; omega)
  have e3 : kOf ⟨8 * (t.val / 8) + s.val, hn⟩ kk = kAt s kk :=
    Fin.ext (by show 512 * ((8 * (t.val / 8) + s.val) % 8) + kk.val = 512 * s.val + kk.val; omega)
  rw [e1, e3]

/-- The tile written at the last column block of a run, at (p, r), is the result function there. -/
theorem out_entry (t : Fin cfg0.N) (h7 : t.val % 8 = 7) (p r : Fin 1024) :
    (outsAt0 m c t.val t.isLt).1 (ix2 p r)
      = entry (X2 m c) (Qa m c) (STa m c) (Aa m c) (Ba m c) (rowOf t p) (colOf t r) := by
  have hbase : ∑ s ∈ Finset.range 8, baseAdd m c (8 * (t.val / 8) + s) (p, r)
      = ∑ k : Fin 4096, baseTerm (X2 m c) (Qa m c) (STa m c) (rowOf t p) (colOf t r) k := by
    rw [Finset.sum_range (fun s => baseAdd m c (8 * (t.val / 8) + s) (p, r))]
    exact (Finset.sum_congr rfl fun s _ => baseAdd_eq m c t s p r).trans
      (sum_blocks (fun k => baseTerm (X2 m c) (Qa m c) (STa m c) (rowOf t p) (colOf t r) k))
  have hdown : ∀ ρ : Fin 16, ∑ s ∈ Finset.range 8, downAdd m c (8 * (t.val / 8) + s) (p, ρ)
      = ∑ k : Fin 4096, downTerm (X2 m c) (Aa m c) (rowOf t p) ρ k := fun ρ => by
    rw [Finset.sum_range (fun s => downAdd m c (8 * (t.val / 8) + s) (p, ρ))]
    exact (Finset.sum_congr rfl fun s _ => downAdd_eq m c t s p ρ).trans
      (sum_blocks (fun k => downTerm (X2 m c) (Aa m c) (rowOf t p) ρ k))
  rw [out_closed m c t h7 p r, hbase, zero_add]
  unfold entry
  refine congrArg (_ + ·) (congrArg (· * _) (Finset.sum_congr rfl fun ρ _ => ?_))
  rw [hdown ρ, zero_add, bAt_eq' m c t, read_b m c t r ρ]
  rfl

/-! ## From tiles to the array -/

/-- An index of the output is in point `t`'s tile iff each coordinate is in the tile's range on its axis. -/
theorem mem_tile (t : Fin cfg0.N) (i : S8192x4096.Idx) :
    i ∈ ((cfg0.win 5).blk t).view.set ↔ ∀ a : Fin 2, win0_5.index t a * S1024x1024.size a ≤ (i a).val
      ∧ (i a).val < win0_5.index t a * S1024x1024.size a + S1024x1024.size a := by
  show i ∈ ((View.whole main_v2).slice (win0_5.rect t)).set ↔ _
  rw [View.set_slice_whole, Rect.mem_set_unit]
  exact Iff.rfl

/-- What a writing point writes back is its tile of the result function. -/
theorem flushed_eq (t : Fin cfg0.N) (hf : (cfg0.win 5).flush t = true) :
    (dats m 0 c).flushed 5 t = ((cfg0.win 5).blk t).view.read (Elt Ideal) (G m c) := by
  have h7 : t.val % 8 = 7 := (flush0_5 t).mp hf
  obtain ⟨-, -, -, -, -, -, -, -, -, -, e0, e1⟩ := idx_facts t
  show (cfg0.win 5).cut (grid0.coords t) ((dats m 0 c).after 5 t) = _
  rw [after0_5]
  funext y
  show (outsAt0 m c t.val t.isLt).1 y = G m c (((cfg0.win 5).blk t).view.emb y)
  obtain ⟨p, r, rfl⟩ : ∃ (p r : Fin 1024), y = ix2 p r := ⟨y 0, y 1, eq_ix2 y⟩
  have hemb : ((cfg0.win 5).blk t).view.emb (ix2 p r) = ix2 (rowOf t p) (colOf t r) := funext fun a => Fin.ext (by
    match a with
    | ⟨0, _⟩ => show win0_5.index t (0 : Fin 2) * 1024 + 1 * p.val = 1024 * (t.val / 32) + p.val; omega
    | ⟨1, _⟩ => show win0_5.index t (1 : Fin 2) * 1024 + 1 * r.val = 1024 * (t.val / 8 % 4) + r.val; omega)
  rw [hemb]
  exact out_entry m c t h7 p r

/-- Every index of the output is in the tile of the point that ends its tile's run. -/
theorem tiles_cover (i : S8192x4096.Idx) :
    ∃ t : Fin cfg0.N, (cfg0.win 5).flush t = true ∧ i ∈ ((cfg0.win 5).blk t).view.set := by
  have hN : cfg0.N = 256 := N_0
  have h0 : (i 0).val < 8192 := idx2_lt0 i
  have h1 : (i 1).val < 4096 := idx2_lt1 i
  have hlt : 32 * ((i 0).val / 1024) + 8 * ((i 1).val / 1024) + 7 < cfg0.N := by omega
  obtain ⟨-, -, -, -, -, -, -, -, -, -, e0, e1⟩ := idx_facts ⟨_, hlt⟩
  dsimp only at e0 e1
  refine ⟨⟨_, hlt⟩, (flush0_5 _).mpr (by dsimp only; omega), ?_⟩
  rw [mem_tile]
  intro a
  match a with
  | ⟨0, _⟩ =>
    show win0_5.index ⟨_, hlt⟩ (0 : Fin 2) * 1024 ≤ (i 0).val ∧ (i 0).val < win0_5.index ⟨_, hlt⟩ (0 : Fin 2) * 1024 + 1024
    rw [e0]; omega
  | ⟨1, _⟩ =>
    show win0_5.index ⟨_, hlt⟩ (1 : Fin 2) * 1024 ≤ (i 1).val ∧ (i 1).val < win0_5.index ⟨_, hlt⟩ (1 : Fin 2) * 1024 + 1024
    rw [e1]; omega

/-- So the output array ends holding the result function. -/
theorem final_out : (dats m 0 c).arrAt 5 cfg0.N = G m c :=
  (dats m 0 c).arrAt_eq_of_cover 5 (G m c) (flushed_eq m c) (tiles_cover)

end Cert.KernelIdeal.Body

end
-- ==== Proof.KernelRun.lean ====
/-
  The kernel program's run, read as a value.
  After the call the host reshapes the 8192 × 4096 output to 4 × 2048 × 4096; the arrays the call found are the
  launch arguments, the activations flattened and the scales transposed by the two host operations before it. So
  every execution ends with the result buffer at the reshape of the result function of those, and the arguments
  as launched.
-/
import proofs.«129875_j63350767616598_1_alg».proof.Proof.Final

noncomputable section

namespace Cert.KernelIdeal.Body

open Cert.KernelIdeal Cert.KernelIdeal.Gen Idealize.ShloMosaic Idealize.ShloMosaic.TcCoe Idealize.SL.Sem
open Idealize.ShloMosaic.ValueIdx
open Idealize.ShloMosaic.Pipeline (Dat)
open Cert.QLora (result)

variable (m : (ℓ : Loc nD τ sig) → Buf (Elt Ideal) ℓ) (c : Dev nD)

/-- The host operation after the call reshapes the output array. -/
theorem tail_eq : Pipeline.afterTail₀ cfgs (dats m) 0 (V0 m) [hostOps1] c main_v3
    = shapeCast S4x2048x4096 (G m c) shapeCasts_S8192x4096_S4x2048x4096 := by
  have e : Pipeline.withArrays (cfgs 0).spec c (V0 m c) (fun w => (dats m 0 c).arrAt w (cfgs 0).N) (Proc.devRef .tc main_v2) = G m c :=
    (Pipeline.withArrays_arr spec0 launch0.win.arr_inj c _ _ 5).trans (final_out m c)
  unfold Pipeline.afterTail₀
  show StableHlo.after hostOps1 _ (Proc.devRef .tc main_v3) = _
  after_results
  rw [e]
  rfl

/-- The result function over the launch arguments. -/
def value : S4x2048x4096.Idx → EReal :=
  shapeCast S4x2048x4096
    (result (shapeCast S8192x4096 (m ((c : Thread nD τ).loc main_arg0)) shapeCasts_S4x2048x4096_S8192x4096)
      (m ((c : Thread nD τ).loc main_arg1))
      (transpose S64x4096 [1, 0] (m ((c : Thread nD τ).loc main_arg2)) transposes_S4096x64_S64x4096_1_0)
      (m ((c : Thread nD τ).loc main_arg3)) (m ((c : Thread nD τ).loc main_arg4)))
    shapeCasts_S8192x4096_S4x2048x4096

theorem G_args : shapeCast S4x2048x4096 (G m c) shapeCasts_S8192x4096_S4x2048x4096 = value m c := by
  unfold value G X2 Qa STa Aa Ba
  rw [V_flat m c, V_scalesT m c, V_main_arg1 m c, V_main_arg3 m c, V_main_arg4 m c]

/-- Every weakly fair execution of the idealized kernel program terminates with the result buffer at `value` and
    the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v3) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v3 (Pipeline.mem_restRefs_of main_v3 (by decide) (by decide))).trans ((tail_eq m c).trans (G_args m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelIdeal.Body

end
-- ==== Proof.RefValue.lean ====
/-
  The reference computes the same function.
  jnp's reference dequantises the whole weight (codes regrouped as feature × group × lane, scales repeated along
  the lane, flattened back), contracts the activations with it over all 4096 columns, contracts them with the
  adapter's A and the result with its B, doubles that and adds. Entry (b, s, n) of its result is therefore

      ∑ₖ x[b,s,k] · (q[n,k] · scales[n, k / 64])  +  (∑ρ (∑ₖ x[b,s,k] · A[ρ,k]) · B[n,ρ]) · 2 ,

  which is entry (2048·b + s, n) of the result function over the activations flattened to 8192 rows and the
  scales transposed to group-major: a reshape keeps row-major position and a transpose swaps the two coordinates.
-/
import proofs.«129875_j63350767616598_1_alg».proof.Proof.Gen.ReferenceIdeal.Read
import proofs.«129875_j63350767616598_1_alg».proof.Proof.Spec
import Idealize.ShloMosaic.Lib.ValueIdx
import Idealize.ShloMosaic.Lib.ValueLayout
import Idealize.ShloMosaic.Lib.Pipeline.Value

noncomputable section

namespace Cert.ReferenceIdeal.RefValue

open Cert.ReferenceIdeal Cert.ReferenceIdeal.Read Idealize.ShloMosaic Idealize.ShloMosaic.ValueIdx
open Cert.QLora (grp64)

theorem ref_eq (x : (⟨S4x2048x4096, .f32⟩ : BufTy).Contents (Elt Ideal)) (q : (⟨S4096x4096, .i32⟩ : BufTy).Contents (Elt Ideal))
    (sc : (⟨S4096x64, .f32⟩ : BufTy).Contents (Elt Ideal)) (A : (⟨S16x4096, .f32⟩ : BufTy).Contents (Elt Ideal))
    (B : (⟨S4096x16, .f32⟩ : BufTy).Contents (Elt Ideal))
    (h1 : S4x2048x4096.ShapeCasts ⟨2, ![8192, 4096]⟩) (ht : S4096x64.Transposes [1, 0] ⟨2, ![64, 4096]⟩)
    (h2 : (⟨2, ![8192, 4096]⟩ : Shape).ShapeCasts S4x2048x4096) :
    val_main_v11 (F := Ideal) x q sc A B
      = shapeCast S4x2048x4096
          (Cert.QLora.result (shapeCast ⟨2, ![8192, 4096]⟩ x h1) q (transpose ⟨2, ![64, 4096]⟩ [1, 0] sc ht) A B) h2 := by
  funext i
  obtain ⟨b, s, n, rfl⟩ : ∃ (b : Fin 4) (s : Fin 2048) (n : Fin 4096), i = ix3 b s n := ⟨i 0, i 1, i 2, eq_ix3 i⟩
  have hb := b.isLt
  have hs := s.isLt
  have hn := n.isLt
  -- the right side: entry (2048 b + s, n) of the result function
  rw [shapeCast_apply _ h2 (ix3 b s n) (ix2 (⟨2048 * b.val + s.val, by omega⟩ : Fin 8192) n) (by
    rewrite [Shape.rowMajor_val_two, Shape.rowMajor_val_three]
    show (2048 * b.val + s.val) * 4096 + n.val = (b.val * 2048 + s.val) * 4096 + n.val
    omega)]
  show _ = Cert.QLora.entry _ q _ A B (⟨2048 * b.val + s.val, by omega⟩ : Fin 8192) n
  unfold Cert.QLora.entry Cert.QLora.baseTerm Cert.QLora.downTerm
  have eX : ∀ k : Fin 4096, shapeCast ⟨2, ![8192, 4096]⟩ x h1 (ix2 (⟨2048 * b.val + s.val, by omega⟩ : Fin 8192) k) = x (ix3 b s k) :=
    fun k => shapeCast_apply _ h1 _ _ (by
      rewrite [Shape.rowMajor_val_three, Shape.rowMajor_val_two]
      show (b.val * 2048 + s.val) * 4096 + k.val = (2048 * b.val + s.val) * 4096 + k.val
      omega)
  have eS : ∀ k : Fin 4096, transpose ⟨2, ![64, 4096]⟩ [1, 0] sc ht (ix2 (grp64 k) n) = sc (ix2 n (grp64 k)) :=
    fun k => transpose_ix2_apply sc ht (grp64 k) n
  simp only [eX, eS]
  -- the left side: the reference's operations read at the index, outermost first
  rw [val_main_v11_apply, val_main_v6_apply, val_main_v10_apply, val_main_v8_apply, val_main_v9_apply, val_main_cst_apply]
  have el6 : ∀ k : Fin 4096, lidx_main_v6 (ix3 b s n) k = ix3 b s k := fun k => funext fun a => Fin.ext (by
    match a with | ⟨0, _⟩ => rfl | ⟨1, _⟩ => rfl | ⟨2, _⟩ => rfl)
  have er6 : ∀ k : Fin 4096, ridx_main_v6 (ix3 b s n) k = ix2 n k := fun k => funext fun a => Fin.ext (by
    match a with | ⟨0, _⟩ => rfl | ⟨1, _⟩ => rfl)
  have el8 : ∀ ρ : Fin 16, lidx_main_v8 (ix3 b s n) ρ = ix3 b s ρ := fun ρ => funext fun a => Fin.ext (by
    match a with | ⟨0, _⟩ => rfl | ⟨1, _⟩ => rfl | ⟨2, _⟩ => rfl)
  have er8 : ∀ ρ : Fin 16, ridx_main_v8 (ix3 b s n) ρ = ix2 n ρ := fun ρ => funext fun a => Fin.ext (by
    match a with | ⟨0, _⟩ => rfl | ⟨1, _⟩ => rfl)
  have el7 : ∀ (ρ : Fin 16) (k : Fin 4096), lidx_main_v7 (ix3 b s ρ) k = ix3 b s k := fun ρ k => funext fun a => Fin.ext (by
    match a with | ⟨0, _⟩ => rfl | ⟨1, _⟩ => rfl | ⟨2, _⟩ => rfl)
  have er7 : ∀ (ρ : Fin 16) (k : Fin 4096), ridx_main_v7 (ix3 b s ρ) k = ix2 ρ k := fun ρ k => funext fun a => Fin.ext (by
    match a with | ⟨0, _⟩ => rfl | ⟨1, _⟩ => rfl)
  have e5 : ∀ k : Fin 4096, idx_main_v1 (idx_main_v5 (ix2 n k)) = ix2 n k := fun k => funext fun a => Fin.ext (by
    have hk := k.isLt
    match a with
    | ⟨0, _⟩ => show (((n.val * 4096 + k.val) / 4096 * 64 + (n.val * 4096 + k.val) / 64 % 64) * 64 + (n.val * 4096 + k.val) % 64) / 4096 = n.val; omega
    | ⟨1, _⟩ => show (((n.val * 4096 + k.val) / 4096 * 64 + (n.val * 4096 + k.val) / 64 % 64) * 64 + (n.val * 4096 + k.val) % 64) % 4096 = k.val; omega)
  have e3 : ∀ k : Fin 4096, idx_main_v2 (idx_main_v3 (idx_main_v5 (ix2 n k))) = ix2 n (grp64 k) := fun k => funext fun a => Fin.ext (by
    have hk := k.isLt
    match a with
    | ⟨0, _⟩ => show (n.val * 4096 + k.val) / 4096 = n.val; omega
    | ⟨1, _⟩ => show (n.val * 4096 + k.val) / 64 % 64 = k.val / 64; omega)
  simp only [el6, er6, el8, er8, val_main_v7_apply, el7, er7, val_main_v5_apply, val_main_v4_apply, val_main_v1_apply,
    val_main_v0_apply, val_main_v3_apply, val_main_v2_apply, e5, e3, Ideal.mulf_def, Ideal.addf_def]
  rfl

end Cert.ReferenceIdeal.RefValue

end
-- ==== Proof.lean ====
/-
  The kernel is a tiled int4-dequantising matmul with a rank-16 adapter: for activations x (4 × 2048 × 4096,
  flattened to 8192 rows), integer codes q and per-group scales (a weight W[n,k] = q[n,k] · scale[n, k / 64]),
  and adapter matrices A (16 × 4096) and B (4096 × 16),

      out[row, n] = ∑ₖ x[row,k] · W[n,k]  +  (∑ρ (∑ₖ x[row,k] · A[ρ,k]) · B[n,ρ]) · 2 .

  The kernel walks 8 × 4 output tiles and, for each, eight blocks of 512 columns: it zeroes two accumulators at the
  first block, adds each block's products, and at the last block writes the tile from them. On the extended reals
  its narrowing to bf16 before each product is the identity and the eight block sums are the one sum over 4096
  columns regrouped, which only uses that addition is commutative and associative; so the tile is the reference's
  two contractions at the same entries. The frames of the two kernel programs are the generated ones; the
  reference's is its generated run with the result dropped; nothing was rewritten between the kernel and its
  idealization.
-/
import proofs.«129875_j63350767616598_1_alg».proof.Defs
import proofs.«129875_j63350767616598_1_alg».proof.Proof.Gen.Kernel
import proofs.«129875_j63350767616598_1_alg».proof.Proof.Gen.Kernel.Frame
import proofs.«129875_j63350767616598_1_alg».proof.Proof.Gen.KernelIdeal
import proofs.«129875_j63350767616598_1_alg».proof.Proof.Gen.KernelIdeal.Frame
import proofs.«129875_j63350767616598_1_alg».proof.Proof.Gen.ReferenceIdeal
import proofs.«129875_j63350767616598_1_alg».proof.Proof.Gen.Pre_finite_inputs
import proofs.«129875_j63350767616598_1_alg».proof.Proof.Gen.ReferenceIdeal.Run
import proofs.«129875_j63350767616598_1_alg».proof.Proof.Gen.ReferenceIdeal.Read
import proofs.«129875_j63350767616598_1_alg».proof.Proof.KernelRun
import proofs.«129875_j63350767616598_1_alg».proof.Proof.RefValue
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem preserves : Cert.preserves_Kernel_KernelIdeal := trivial

/-- Both idealized programs end with the result function of the arguments: the kernel by its run read as a value,
    the reference by its run and the index-by-index reading of its operations, from arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Body.value m c, Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v11_eq _ _ _ _ _).trans
    (Cert.ReferenceIdeal.RefValue.ref_eq _ _ _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
